-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S100000 : Shape := ⟨1, ![100000]⟩
abbrev S512x128 : Shape := ⟨2, ![512, 128]⟩
abbrev S128 : Shape := ⟨1, ![128]⟩
abbrev S128x128 : Shape := ⟨2, ![128, 128]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : IVec S100000 32) (main_arg3 : FVec F S512x128 .f32) (main_arg4 : FVec F S128 .f32) (main_arg5 : FVec F S128x128 .f32) (main_arg6 : FVec F S128 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg3
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x512 : Shape := ⟨2, ![100000, 512]⟩
abbrev S2x1600000 : Shape := ⟨2, ![2, 1600000]⟩
abbrev S100000 : Shape := ⟨1, ![100000]⟩
abbrev S512x128 : Shape := ⟨2, ![512, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x512 : Shape := ⟨2, ![5000, 512]⟩
abbrev S5000x128 : Shape := ⟨2, ![5000, 128]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩

abbrev nBuf : Space → Nat
  | .hbm => 101
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S100000, .i32⟩
  | .hbm, ⟨3, _⟩ => ⟨S512x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x128, .f32⟩
  | .hbm, ⟨76, _⟩ => ⟨S1700000x1, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S_, .f32⟩
  | .hbm, ⟨86, _⟩ => ⟨S64x128, .f32⟩
  | .hbm, ⟨87, _⟩ => ⟨S100000x1, .i32⟩
  | .hbm, ⟨88, _⟩ => ⟨S64x128, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S64, .f32⟩
  | .hbm, ⟨93, _⟩ => ⟨S100000x1, .i32⟩
  | .hbm, ⟨94, _⟩ => ⟨S64, .f32⟩
  | .hbm, ⟨95, _⟩ => ⟨S_, .f32⟩
  | .hbm, ⟨96, _⟩ => ⟨S64, .f32⟩
  | .hbm, ⟨97, _⟩ => ⟨S64, .f32⟩
  | .hbm, ⟨98, _⟩ => ⟨S64x1, .f32⟩
  | .hbm, ⟨99, _⟩ => ⟨S64x128, .f32⟩
  | .hbm, ⟨100, _⟩ => ⟨S64x128, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_15 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x512_S512x128_S5000x128_1_0_0_1_n_n_wf : DotDims.WF S5000x512 S512x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S100000 : Shape := ⟨1, ![100000]⟩
abbrev S512x128 : Shape := ⟨2, ![512, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩

abbrev nBuf : Space → Nat
  | .hbm => 109
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S100000, .i32⟩
  | .hbm, ⟨3, _⟩ => ⟨S512x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .f32⟩
  | .hbm, ⟨80, _⟩ => ⟨S1700000x1, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S_, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S64x128, .f32⟩
  | .hbm, ⟨95, _⟩ => ⟨S100000x1, .i32⟩
  | .hbm, ⟨96, _⟩ => ⟨S64x128, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S64, .f32⟩
  | .hbm, ⟨101, _⟩ => ⟨S100000x1, .i32⟩
  | .hbm, ⟨102, _⟩ => ⟨S64, .f32⟩
  | .hbm, ⟨103, _⟩ => ⟨S_, .f32⟩
  | .hbm, ⟨104, _⟩ => ⟨S64, .f32⟩
  | .hbm, ⟨105, _⟩ => ⟨S64, .f32⟩
  | .hbm, ⟨106, _⟩ => ⟨S64x1, .f32⟩
  | .hbm, ⟨107, _⟩ => ⟨S64x128, .f32⟩
  | .hbm, ⟨108, _⟩ => ⟨S64x128, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call2_cst : Ref sig .tc := ⟨.hbm, 90, rfl⟩
abbrev main_call2_v0 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x128_S100000x128_1_0_0_1_n_n_wf : DotDims.WF S100000x512 S512x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KernelRun.lean ====
/-
  The idealized kernel program's run, keeping the result. The program's @main is ten segments — host lines, a
  pipelined kernel call, host lines, two calls back to back, host lines, a call, host lines — and the buffer contents
  at each boundary are a fold from the launch memory (`Gen.W0` … `Gen.W10`): host lines rewrite their result buffers,
  a call leaves its output array at what its grid points wrote back and every other buffer as it was. Every weakly
  fair execution terminates without a fault, and at the end every buffer holds the last boundary's contents
  `Gen.W10`; in particular the result buffer does, and the seven argument arrays are as launched.
-/
import proofs.«120914_j34591666602182_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement
set_option backward.isDefEq.respectTransparency.types false in
/-- From any memory with zero counters the program terminates, nothing faulting; its result buffer ends at the last
    boundary's contents and its arguments end unchanged. -/
theorem run_value : θ_run defs (onTc (τ := τ) (main (F := F))) ⟨m, fun _ => 0, ρ⟩ (fun r => ∀ c : Dev nD,
      r.2.mem ((c.tc : Thread nD τ).loc main_v73) = W10 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v73 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.GcnRun

end
-- ==== Proof.Spec.lean ====
/-
  The function both programs compute, at any float instance: a two-layer graph convolution followed by a mean over
  each graph's nodes.

  From the edge list `e` (two rows of node numbers) the edges are extended by one self loop per node: `srcIdx e` are
  the sources, `dstIdx e` the targets (1 600 000 edges, then the 100 000 loops). A node's degree is the number of edges
  that end at it; `edgeNorm` is, per edge, 1/sqrt(deg source) · 1/sqrt(deg target), with 0 in place of 1/sqrt at a node of
  degree 0. `propagate` sends a row per node along the edges: row `t[src]` scaled by the edge's norm is added into row
  `dst`. A layer is `propagate` of the node features times a weight matrix, plus a bias row, clamped below at 0
  (`biasRelu`). `meanPool` adds the rows of each graph (the graph number of a node is `g`) and divides by the number
  of its nodes, at least 1.

  Every piece is spelt with the host operations the two printed programs share, so that what each program's host
  lines compute is one of these functions by unfolding; the two matrix products are the host's `dot_general`.
-/
import proofs.«120914_j34591666602182_1_alg».proof.Proof.Gen.ReferenceIdeal

noncomputable section

namespace Cert.Gcn

open Cert.ReferenceIdeal Cert.ReferenceIdeal.Gen Idealize.ShloMosaic Idealize.ShloMosaic.TcCoe Idealize.SL.Sem

variable {F : FTy → Type} [FloatOps F]

/-- The edges' sources: the first row of the edge list, then every node once (the self loops). -/
def srcIdx (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' targets: the second row of the edge list, then every node once. -/
def dstIdx (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- Node numbers as a column of row indices for a gather: a negative number counts from the end (100000 is added once). -/
def wrapIdx (ix : (⟨S1700000, .i32⟩ : BufTy).Contents (Elt F)) : (⟨S1700000x1, .i32⟩ : BufTy).Contents (Elt F) :=
  broadcastInDim S1700000x1 ![0] bcast_S1700000_S1700000x1_0 (select (cmpi .slt ix (broadcastInDim S1700000 ![] bcast_S_S1700000 (constantI S_ 32 0#32))) (addi ix (broadcastInDim S1700000 ![] bcast_S_S1700000 (constantI S_ 32 100000#32))) ix)

/-- A node's degree: one for every edge whose target it is. -/
def degree (col : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 col) (broadcastInDim S1700000 ![] bcast_S_S1700000 (constant S_ .f32 0x3F800000#32))

/-- 1/sqrt(degree) where the degree is positive, 0 elsewhere. -/
def invSqrtDeg (col : (⟨S1700000, .i32⟩ : BufTy).Contents (Elt F)) : (⟨S100000, .f32⟩ : BufTy).Contents (Elt F) :=
  select (cmpf .ogt (degree col) (broadcastInDim S100000 ![] bcast_S_S100000 (constant S_ .f32 0x00000000#32))) (Host.rsqrt (degree col)) (broadcastInDim S100000 ![] bcast_S_S100000 (id (constant S_ .f32 0x00000000#32)))

/-- Per edge: 1/sqrt(deg source) · 1/sqrt(deg target). -/
def edgeNorm (row col : (⟨S1700000, .i32⟩ : BufTy).Contents (Elt F)) : (⟨S1700000, .f32⟩ : BufTy).Contents (Elt F) :=
  mulf (Host.gather gather_S100000_S1700000x1_S1700000_n_0_n_n_0_1_1 (invSqrtDeg col) (wrapIdx row)) (Host.gather gather_S100000_S1700000x1_S1700000_n_0_n_n_0_1_1 (invSqrtDeg col) (wrapIdx col))

/-- Message passing: into row `col e` of a zero array is added, for every edge `e`, row `row e` of `t` times `nrm e`. -/
def propagate (row col : (⟨S1700000, .i32⟩ : BufTy).Contents (Elt F)) (nrm : (⟨S1700000, .f32⟩ : BufTy).Contents (Elt F))
    (t : (⟨S100000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 col) (mulf (Host.gather gather_S100000x128_S1700000x1_S1700000x128_1_0_n_n_0_1_1128 t (wrapIdx row)) (broadcastInDim S1700000x128 ![0, 1] bcast_S1700000x1_S1700000x128_0_1 (broadcastInDim S1700000x1 ![0] bcast_S1700000_S1700000x1_0 nrm)))

/-- `max (x + b, 0)` with the bias given as one row of 128. -/
def biasReluRow (x : (⟨S100000x128, .f32⟩ : BufTy).Contents (Elt F)) (b : (⟨S1x128, .f32⟩ : BufTy).Contents (Elt F)) :
    (⟨S100000x128, .f32⟩ : BufTy).Contents (Elt F) :=
  maximumf (addf x (broadcastInDim S100000x128 ![0, 1] bcast_S1x128_S100000x128_0_1 b)) (broadcastInDim S100000x128 ![] bcast_S_S100000x128 (constant S_ .f32 0x00000000#32))

/-- `max (x + b, 0)`, the bias a vector of 128 added to every row. -/
def biasRelu (x : (⟨S100000x128, .f32⟩ : BufTy).Contents (Elt F)) (b : (⟨S128, .f32⟩ : BufTy).Contents (Elt F)) :
    (⟨S100000x128, .f32⟩ : BufTy).Contents (Elt F) :=
  biasReluRow x (broadcastInDim S1x128 ![1] bcast_S128_S1x128_1 b)

/-- The first layer's matrix product, node features [100000, 512] times weights [512, 128]. -/
def lin512 (x : (⟨S100000x512, .f32⟩ : BufTy).Contents (Elt F)) (w : (⟨S512x128, .f32⟩ : BufTy).Contents (Elt F)) :
    (⟨S100000x128, .f32⟩ : BufTy).Contents (Elt F) :=
  Host.dotGeneral dot_S100000x512_S512x128_S100000x128_1_0_0_1_n_n none x w

/-- The second layer's matrix product, [100000, 128] times [128, 128]. -/
def lin128 (x : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none x w

/-- The mean of the rows of each of the 64 graphs: the rows' sum over the number of the graph's nodes, at least 1. -/
def meanPool (g : (⟨S100000, .i32⟩ : BufTy).Contents (Elt F)) (h : (⟨S100000x128, .f32⟩ : BufTy).Contents (Elt F)) :
    (⟨S64x128, .f32⟩ : BufTy).Contents (Elt F) :=
  Host.divf (Host.scatterAdd scatter_S64x128_S100000x1_S100000x128_1_0_0_1 (broadcastInDim S64x128 ![] bcast_S_S64x128 (constant S_ .f32 0x00000000#32)) (broadcastInDim S100000x1 ![0] bcast_S100000_S100000x1_0 g) h) (broadcastInDim S64x128 ![0, 1] bcast_S64x1_S64x128_0_1 (broadcastInDim S64x1 ![0] bcast_S64_S64x1_0 (maximumf (Host.scatterAdd scatter_S64_S100000x1_S100000_n_0_0_1 (broadcastInDim S64 ![] bcast_S_S64 (constant S_ .f32 0x00000000#32)) (broadcastInDim S100000x1 ![0] bcast_S100000_S100000x1_0 g) (broadcastInDim S100000 ![] bcast_S_S100000 (constant S_ .f32 0x3F800000#32))) (broadcastInDim S64 ![] bcast_S_S64 (constant S_ .f32 0x3F800000#32)))))

/-- One layer after its matrix product `t`: propagate along the edges of `e`, add the bias, clamp at 0. -/
def layerTail (e : (⟨S2x1600000, .i32⟩ : BufTy).Contents (Elt F)) (t : (⟨S100000x128, .f32⟩ : BufTy).Contents (Elt F))
    (b : (⟨S128, .f32⟩ : BufTy).Contents (Elt F)) : (⟨S100000x128, .f32⟩ : BufTy).Contents (Elt F) :=
  biasRelu (propagate (srcIdx e) (dstIdx e) (edgeNorm (srcIdx e) (dstIdx e)) t) b

/-- The whole network: two layers, then the mean over each graph. -/
def gcn (x : (⟨S100000x512, .f32⟩ : BufTy).Contents (Elt F)) (e : (⟨S2x1600000, .i32⟩ : BufTy).Contents (Elt F))
    (g : (⟨S100000, .i32⟩ : BufTy).Contents (Elt F)) (w1 : (⟨S512x128, .f32⟩ : BufTy).Contents (Elt F))
    (b1 : (⟨S128, .f32⟩ : BufTy).Contents (Elt F)) (w2 : (⟨S128x128, .f32⟩ : BufTy).Contents (Elt F))
    (b2 : (⟨S128, .f32⟩ : BufTy).Contents (Elt F)) : (⟨S64x128, .f32⟩ : BufTy).Contents (Elt F) :=
  meanPool g (layerTail e (lin128 (layerTail e (lin512 x w1) b1) w2) b2)

end Cert.Gcn

end
-- ==== Proof.RefDot.lean ====
/-
  The host's two matrix products read at an index, with exact arithmetic: entry (r, j) of `lin512 x w` is the sum over
  k < 512 of x[r, k] · w[k, j], and entry (r, j) of `lin128 x w` the sum over k < 128. At the extended reals a
  dot_general is the plain sum over its contraction index; the contraction index of a product with one contracted
  axis is a number k, and the operand indices at output index (r, j) are (r, k) and (k, j).
-/
import proofs.«120914_j34591666602182_1_alg».proof.Proof.Gen.ReferenceIdeal
import proofs.«120914_j34591666602182_1_alg».proof.Proof.Spec
import Idealize.ShloMosaic.Lib.ValueIdx
import Idealize.ShloMosaic.PureOps.Ideal.Laws

noncomputable section

namespace Cert.Gcn.Dot

open Cert.ReferenceIdeal Cert.ReferenceIdeal.Gen Idealize.ShloMosaic Idealize.ShloMosaic.TcCoe Idealize.SL.Sem

/-! ## [100000, 512] × [512, 128] -/

theorem lhs512_0 (i : S100000x128.Idx) (q : dot_S100000x512_S512x128_S100000x128_1_0_0_1_n_n.contr.Idx) : (dot_S100000x512_S512x128_S100000x128_1_0_0_1_n_n.lhsIdx i q 0).val = (i 0).val := by
  unfold DotDims.lhsIdx
  rw [dif_neg (show ¬(0 : Fin S100000x512.rank) ∈ dot_S100000x512_S512x128_S100000x128_1_0_0_1_n_n.lhsBatch by decide), dif_pos (show (0 : Fin S100000x512.rank) ∈ dot_S100000x512_S512x128_S100000x128_1_0_0_1_n_n.lhsNonContracting by decide)]
  rfl
theorem lhs512_1 (i : S100000x128.Idx) (q : dot_S100000x512_S512x128_S100000x128_1_0_0_1_n_n.contr.Idx) : (dot_S100000x512_S512x128_S100000x128_1_0_0_1_n_n.lhsIdx i q 1).val = (q ⟨0, by decide⟩).val :=
  dot_S100000x512_S512x128_S100000x128_1_0_0_1_n_n.lhsIdx_val_of_single rfl i q
theorem rhs512_0 (i : S100000x128.Idx) (q : dot_S100000x512_S512x128_S100000x128_1_0_0_1_n_n.contr.Idx) : (dot_S100000x512_S512x128_S100000x128_1_0_0_1_n_n.rhsIdx i q 0).val = (q ⟨0, by decide⟩).val :=
  dot_S100000x512_S512x128_S100000x128_1_0_0_1_n_n.rhsIdx_val_of_single rfl i q
theorem rhs512_1 (i : S100000x128.Idx) (q : dot_S100000x512_S512x128_S100000x128_1_0_0_1_n_n.contr.Idx) : (dot_S100000x512_S512x128_S100000x128_1_0_0_1_n_n.rhsIdx i q 1).val = (i 1).val := by
  unfold DotDims.rhsIdx
  rw [dif_neg (show ¬(1 : Fin S512x128.rank) ∈ dot_S100000x512_S512x128_S100000x128_1_0_0_1_n_n.rhsBatch by decide), dif_pos (show (1 : Fin S512x128.rank) ∈ dot_S100000x512_S512x128_S100000x128_1_0_0_1_n_n.rhsNonContracting by decide)]
  rfl

/-- Row `i₀`, column `k` of the left operand. -/
abbrev lidx512 (i : S100000x128.Idx) (k : Fin 512) : S100000x512.Idx := fun a => match a with
  | ⟨0, _⟩ => ⟨(i 0).val, (i 0).isLt⟩
  | ⟨1, _⟩ => ⟨k.val, k.isLt⟩
/-- Row `k`, column `i₁` of the right operand. -/
abbrev ridx512 (i : S100000x128.Idx) (k : Fin 512) : S512x128.Idx := fun a => match a with
  | ⟨0, _⟩ => ⟨k.val, k.isLt⟩
  | ⟨1, _⟩ => ⟨(i 1).val, (i 1).isLt⟩

theorem lin512_apply (x : (⟨S100000x512, .f32⟩ : BufTy).Contents (Elt Ideal)) (w : (⟨S512x128, .f32⟩ : BufTy).Contents (Elt Ideal)) (i : S100000x128.Idx) :
    lin512 (F := Ideal) x w i = ∑ k : Fin 512, x (lidx512 i k) * w (ridx512 i k) := by
  unfold lin512
  simp only [Host.dotGeneral]
  rw [Ideal.dotGeneral_apply, ← Equiv.sum_comp (ValueIdx.contrEquiv1 dot_S100000x512_S512x128_S100000x128_1_0_0_1_n_n 512 rfl rfl).symm]
  refine Finset.sum_congr rfl fun k _ => ?_
  have hk := ValueIdx.contrEquiv1_symm_val dot_S100000x512_S512x128_S100000x128_1_0_0_1_n_n 512 rfl rfl k
  have el : dot_S100000x512_S512x128_S100000x128_1_0_0_1_n_n.lhsIdx i ((ValueIdx.contrEquiv1 dot_S100000x512_S512x128_S100000x128_1_0_0_1_n_n 512 rfl rfl).symm k) = lidx512 i k := funext fun a => Fin.ext (by
    match a with
    | ⟨0, _⟩ => exact lhs512_0 _ _
    | ⟨1, _⟩ => exact (lhs512_1 _ _).trans hk)
  have er : dot_S100000x512_S512x128_S100000x128_1_0_0_1_n_n.rhsIdx i ((ValueIdx.contrEquiv1 dot_S100000x512_S512x128_S100000x128_1_0_0_1_n_n 512 rfl rfl).symm k) = ridx512 i k := funext fun a => Fin.ext (by
    match a with
    | ⟨0, _⟩ => exact (rhs512_0 _ _).trans hk
    | ⟨1, _⟩ => exact rhs512_1 _ _)
  rw [el, er]

/-! ## [100000, 128] × [128, 128] -/

theorem lhs128_0 (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs128_1 (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
theorem rhs128_0 (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
theorem rhs128_1 (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- Row `i₀`, column `k` of the left operand. -/
abbrev lidx128 (i : S100000x128.Idx) (k : Fin 128) : S100000x128.Idx := fun a => match a with
  | ⟨0, _⟩ => ⟨(i 0).val, (i 0).isLt⟩
  | ⟨1, _⟩ => ⟨k.val, k.isLt⟩
/-- Row `k`, column `i₁` of the right operand. -/
abbrev ridx128 (i : S100000x128.Idx) (k : Fin 128) : S128x128.Idx := fun a => match a with
  | ⟨0, _⟩ => ⟨k.val, k.isLt⟩
  | ⟨1, _⟩ => ⟨(i 1).val, (i 1).isLt⟩

theorem lin128_apply (x : (⟨S100000x128, .f32⟩ : BufTy).Contents (Elt Ideal)) (w : (⟨S128x128, .f32⟩ : BufTy).Contents (Elt Ideal)) (i : S100000x128.Idx) :
    lin128 (F := Ideal) x w i = ∑ k : Fin 128, x (lidx128 i k) * w (ridx128 i k) := by
  unfold lin128
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx128 i k := funext fun a => Fin.ext (by
    match a with
    | ⟨0, _⟩ => exact lhs128_0 _ _
    | ⟨1, _⟩ => exact (lhs128_1 _ _).trans hk)
  have er : dot_S100000x128_S128x128_S100000x128_1_0_0_1_n_n.rhsIdx i ((ValueIdx.contrEquiv1 dot_S100000x128_S128x128_S100000x128_1_0_0_1_n_n 128 rfl rfl).symm k) = ridx128 i k := funext fun a => Fin.ext (by
    match a with
    | ⟨0, _⟩ => exact (rhs128_0 _ _).trans hk
    | ⟨1, _⟩ => exact rhs128_1 _ _)
  rw [el, er]

end Cert.Gcn.Dot

end
-- ==== Proof.RegionLin512.lean ====
/-
  The first layer's matrix product, as the kernel call computes it: the result array is the host's dot_general of the node features and the first weight matrix.

  The kernel call tiles the 100000 rows of the node features into 20 blocks of 5000 rows; at grid point `t` its body multiplies block
  `t` of the left operand by the whole weight matrix into a zero accumulator and stores the product as block `t` of the
  result. Read with exact arithmetic (a change of float format is the identity), entry (r, j) of that block is the sum
  over k of left[5000·t + r, k] · weights[k, j], which is the host's dot_general of the two whole arrays at row
  5000·t + r: every point writes back its block of ONE whole-array function, and the 20 blocks cover the result.
-/
import proofs.«120914_j34591666602182_1_alg».proof.Proof.Gen.KernelIdeal.Frame
import proofs.«120914_j34591666602182_1_alg».proof.Proof.RefDot
import proofs.«120914_j34591666602182_1_alg».proof.Proof.Spec
import Idealize.ShloMosaic.Lib.Pipeline.Value
import Idealize.ShloMosaic.Lib.ValueIdx
import Idealize.ShloMosaic.PureOps.Ideal.Laws

noncomputable section

namespace Cert.KernelIdeal.Lin512

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-! ## The body's product at an index -/

/-- The product's operand indices at output index `i` and contraction index `q`: (i₀, q) on the left, (q, i₁) on the right. -/
theorem lhs_0 (i : S5000x128.Idx) (q : dot_S5000x512_S512x128_S5000x128_1_0_0_1_n_n.contr.Idx) : (dot_S5000x512_S512x128_S5000x128_1_0_0_1_n_n.lhsIdx i q 0).val = (i 0).val := by
  unfold DotDims.lhsIdx
  rw [dif_neg (show ¬(0 : Fin S5000x512.rank) ∈ dot_S5000x512_S512x128_S5000x128_1_0_0_1_n_n.lhsBatch by decide), dif_pos (show (0 : Fin S5000x512.rank) ∈ dot_S5000x512_S512x128_S5000x128_1_0_0_1_n_n.lhsNonContracting by decide)]
  rfl
theorem lhs_1 (i : S5000x128.Idx) (q : dot_S5000x512_S512x128_S5000x128_1_0_0_1_n_n.contr.Idx) : (dot_S5000x512_S512x128_S5000x128_1_0_0_1_n_n.lhsIdx i q 1).val = (q ⟨0, by decide⟩).val :=
  dot_S5000x512_S512x128_S5000x128_1_0_0_1_n_n.lhsIdx_val_of_single rfl i q
theorem rhs_0 (i : S5000x128.Idx) (q : dot_S5000x512_S512x128_S5000x128_1_0_0_1_n_n.contr.Idx) : (dot_S5000x512_S512x128_S5000x128_1_0_0_1_n_n.rhsIdx i q 0).val = (q ⟨0, by decide⟩).val :=
  dot_S5000x512_S512x128_S5000x128_1_0_0_1_n_n.rhsIdx_val_of_single rfl i q
theorem rhs_1 (i : S5000x128.Idx) (q : dot_S5000x512_S512x128_S5000x128_1_0_0_1_n_n.contr.Idx) : (dot_S5000x512_S512x128_S5000x128_1_0_0_1_n_n.rhsIdx i q 1).val = (i 1).val := by
  unfold DotDims.rhsIdx
  rw [dif_neg (show ¬(1 : Fin S512x128.rank) ∈ dot_S5000x512_S512x128_S5000x128_1_0_0_1_n_n.rhsBatch by decide), dif_pos (show (1 : Fin S512x128.rank) ∈ dot_S5000x512_S512x128_S5000x128_1_0_0_1_n_n.rhsNonContracting by decide)]
  rfl

/-- Row `y₀`, column `k` of the left block. -/
abbrev lrow (y : S5000x128.Idx) (k : Fin 512) : S5000x512.Idx := fun a => match a with
  | ⟨0, _⟩ => ⟨(y 0).val, (y 0).isLt⟩
  | ⟨1, _⟩ => ⟨k.val, k.isLt⟩
/-- Row `k`, column `y₁` of the weights. -/
abbrev rcol (y : S5000x128.Idx) (k : Fin 512) : S512x128.Idx := fun a => match a with
  | ⟨0, _⟩ => ⟨k.val, k.isLt⟩
  | ⟨1, _⟩ => ⟨(y 1).val, (y 1).isLt⟩

/-- The stored block at (y₀, y₁) is the sum over k of left[y₀, k] · weights[k, y₁]: the format changes are the
    identity and the accumulator starts at zero. -/
theorem pay_apply (x0 : Vec Ideal S5000x512 .f32) (x1 : Vec Ideal S512x128 .f32) (y : S5000x128.Idx) :
    k0_pay1 x0 x1 y = ∑ k : Fin 512, x0 (lrow y k) * x1 (rcol y k) := by
  unfold k0_pay1
  show matmul (F := Ideal) dot_S5000x512_S512x128_S5000x128_1_0_0_1_n_n none (truncf (F := Ideal) .bf16 x0 bitsLt_bf16_f32) (truncf (F := Ideal) .bf16 x1 bitsLt_bf16_f32) (constant (F := Ideal) S5000x128 .f32 0x00000000#32) y = _
  simp only [matmul]
  rw [Ideal.matmul_constant_zero_apply, ← Equiv.sum_comp (ValueIdx.contrEquiv1 dot_S5000x512_S512x128_S5000x128_1_0_0_1_n_n 512 rfl rfl).symm]
  refine Finset.sum_congr rfl fun k _ => ?_
  have hk := ValueIdx.contrEquiv1_symm_val dot_S5000x512_S512x128_S5000x128_1_0_0_1_n_n 512 rfl rfl k
  have el : dot_S5000x512_S512x128_S5000x128_1_0_0_1_n_n.lhsIdx y ((ValueIdx.contrEquiv1 dot_S5000x512_S512x128_S5000x128_1_0_0_1_n_n 512 rfl rfl).symm k) = lrow y k := funext fun a => Fin.ext (by
    match a with
    | ⟨0, _⟩ => exact lhs_0 _ _
    | ⟨1, _⟩ => exact (lhs_1 _ _).trans hk)
  have er : dot_S5000x512_S512x128_S5000x128_1_0_0_1_n_n.rhsIdx y ((ValueIdx.contrEquiv1 dot_S5000x512_S512x128_S5000x128_1_0_0_1_n_n 512 rfl rfl).symm k) = rcol y k := funext fun a => Fin.ext (by
    match a with
    | ⟨0, _⟩ => exact (rhs_0 _ _).trans hk
    | ⟨1, _⟩ => exact rhs_1 _ _)
  rw [el, er]
  rfl

/-- A block's entry is the whole arrays' product at the matching row: for a left block `x0` that is rows of `A` (through
    `e0`) and weights `x1` that are `W` (through `e1`), whenever the block's row y₀ sits at row i₀ of `A` and column y₁ is
    column i₁. -/
theorem block_value (A : (⟨Cert.ReferenceIdeal.S100000x512, .f32⟩ : BufTy).Contents (Elt Ideal))
    (W : (⟨Cert.ReferenceIdeal.S512x128, .f32⟩ : BufTy).Contents (Elt Ideal))
    (x0 : Vec Ideal S5000x512 .f32) (x1 : Vec Ideal S512x128 .f32) (y : S5000x128.Idx) (i : Cert.ReferenceIdeal.S100000x128.Idx)
    (e0 : S5000x512.Idx → Cert.ReferenceIdeal.S100000x512.Idx) (e1 : S512x128.Idx → Cert.ReferenceIdeal.S512x128.Idx)
    (hx0 : ∀ j, x0 j = A (e0 j)) (hx1 : ∀ j, x1 j = W (e1 j))
    (he0 : ∀ k : Fin 512, e0 (lrow y k) = Cert.Gcn.Dot.lidx512 i k)
    (he1 : ∀ k : Fin 512, e1 (rcol y k) = Cert.Gcn.Dot.ridx512 i k) :
    k0_pay1 x0 x1 y = Cert.Gcn.lin512 A W i := by
  rw [pay_apply]
  refine Eq.trans ?_ (Cert.Gcn.Dot.lin512_apply A W i).symm
  refine Finset.sum_congr rfl fun k _ => ?_
  rw [hx0, hx1, he0, he1]

/-! ## From blocks to the array -/

variable (V : (c : Dev nD) → (b : Ref sig .tc) → Buf (Elt Ideal) ((c : Thread nD τ).loc b))

/-- The printed index maps over the 20 grid points: the left operand's block moves with the result's down the rows,
    the weights' block is the whole matrix. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every block of rows is some grid point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- What point `t` writes back is block `t` of the whole arrays' product. -/
theorem flushed_eq (c : Dev nD) (t : Fin cfg0.N) :
    (dat0 V c).flushed 2 t = ((cfg0.win 2).blk t).view.read (Elt Ideal) (Cert.Gcn.lin512 (V c main_arg0) (V c main_arg3)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x128) hz]
  obtain ⟨e0, e1, e2, e3, e4, e5⟩ := idx_facts t
  funext y
  refine block_value (V c main_arg0) (V c main_arg3) (iblk0 V c 0 t) (iblk0 V c 1 t) y (((cfg0.win 2).blk t).view.emb y)
    (fun j => ((cfg0.win 0).blk t).view.emb j) (fun j => ((cfg0.win 1).blk t).view.emb j) (fun _ => rfl) (fun _ => rfl)
    (fun k => ?_) (fun k => ?_)
  · funext a; apply Fin.ext
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 512 + 1 * k.val = k.val; omega
  · funext a; apply Fin.ext
    match a with
    | ⟨0, _⟩ => show win0_1.index t (0 : Fin 2) * 512 + 1 * k.val = k.val; omega
    | ⟨1, _⟩ => show win0_1.index t (1 : Fin 2) * 128 + 1 * (y 1).val = win0_2.index t (1 : Fin 2) * 128 + 1 * (y 1).val; omega

/-- An index of the result is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r of the result is in the block of point r / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the call the result array is the host's dot_general of the two operand arrays as the call found them. -/
theorem value (c : Dev nD) : (dat0 V c).arrAt 2 cfg0.N = Cert.Gcn.lin512 (V c main_arg0) (V c main_arg3) :=
  (dat0 V c).arrAt_eq_of_cover 2 _ (fun t _ => flushed_eq V c t) cover

end Cert.KernelIdeal.Lin512

end
-- ==== Proof.RegionBias1.lean ====
/-
  The first layer's bias and clamp, as the kernel call computes them: the result array is max(x + b, 0) of the
  propagated features `x` [100000, 128] and the bias row `b` [1, 128].

  The call tiles the 100000 rows into 20 blocks of 5000; at grid point `t` its body adds the one bias row to every row
  of block `t` and clamps below at zero. Entry (r, j) of that block is max(x[5000·t + r, j] + b[0, j], 0), which is the
  host's broadcast-add-maximum of the two whole arrays at row 5000·t + r: every point writes back its block of ONE
  whole-array function, and the 20 blocks cover the result.
-/
import proofs.«120914_j34591666602182_1_alg».proof.Proof.Gen.KernelIdeal.Frame
import proofs.«120914_j34591666602182_1_alg».proof.Proof.Spec
import Idealize.ShloMosaic.Lib.Pipeline.Value
import Idealize.ShloMosaic.Lib.ValueIdx

noncomputable section

namespace Cert.KernelIdeal.Bias1

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-! ## The body at an index -/

/-- The bias row's entry under column `y₁` of a block. -/
abbrev brow (y : S5000x128.Idx) : S1x128.Idx := fun a => match a with
  | ⟨0, _⟩ => ⟨0, by show 0 < 1; omega⟩
  | ⟨1, _⟩ => ⟨(y 1).val, (y 1).isLt⟩

/-- The stored block at (y₀, y₁) is max(x[y₀, y₁] + b[0, y₁], 0): the two shape casts are to the same shape, the
    bias row is broadcast down the rows. -/
theorem pay_apply (x : Vec Ideal S5000x128 .f32) (b : Vec Ideal S1x128 .f32) (y : S5000x128.Idx) :
    k1_pay1 x b y = max (x y + b (brow y)) (Ideal.ofBits .f32 0x00000000#32) := by
  unfold k1_pay1
  show maximumf (F := Ideal) (addf (F := Ideal) (shapeCast S5000x128 x shapeCasts_S5000x128_S5000x128) (broadcastTo S5000x128 (shapeCast S1x128 b shapeCasts_S1x128_S1x128) broadcasts_S1x128_S5000x128)) (broadcast S5000x128 (Scalar.ofBits (F := Ideal) .f32 0x00000000#32)) y = _
  rw [shapeCast_self, shapeCast_self]
  show max (x y + broadcastTo S5000x128 b broadcasts_S1x128_S5000x128 y) (Ideal.ofBits .f32 0x00000000#32) = _
  rw [broadcastTo_apply b broadcasts_S1x128_S5000x128 y (brow y) (fun a => by
    match a with
    | ⟨0, _⟩ => rfl
    | ⟨1, _⟩ => rfl)]

/-- The bias row's entry under column `i₁` of the whole array. -/
abbrev rrow (i : Cert.ReferenceIdeal.S100000x128.Idx) : Cert.ReferenceIdeal.S1x128.Idx := fun a => match a with
  | ⟨0, _⟩ => ⟨0, by show 0 < 1; omega⟩
  | ⟨1, _⟩ => ⟨(i 1).val, (i 1).isLt⟩

/-- The host's form at (i₀, i₁) is max(X[i₀, i₁] + B[0, i₁], 0). -/
theorem spec_apply (X : (⟨Cert.ReferenceIdeal.S100000x128, .f32⟩ : BufTy).Contents (Elt Ideal))
    (B : (⟨Cert.ReferenceIdeal.S1x128, .f32⟩ : BufTy).Contents (Elt Ideal)) (i : Cert.ReferenceIdeal.S100000x128.Idx) :
    Cert.Gcn.biasReluRow X B i = max (X i + B (rrow i)) (Ideal.ofBits .f32 0x00000000#32) := by
  unfold Cert.Gcn.biasReluRow
  show max (X i + broadcastInDim Cert.ReferenceIdeal.S100000x128 ![0, 1] Cert.ReferenceIdeal.Gen.bcast_S1x128_S100000x128_0_1 B i) (Ideal.ofBits .f32 0x00000000#32) = _
  rw [broadcastInDim_apply ![0, 1] Cert.ReferenceIdeal.Gen.bcast_S1x128_S100000x128_0_1 B i (rrow i) (fun a => by
    match a with
    | ⟨0, _⟩ => rfl
    | ⟨1, _⟩ => rfl)]

/-- A block's entry is the whole arrays' value at the matching row: for a block `x` that is rows of `X` and a bias
    block `b` that is `B`. -/
theorem block_value (X : (⟨Cert.ReferenceIdeal.S100000x128, .f32⟩ : BufTy).Contents (Elt Ideal))
    (B : (⟨Cert.ReferenceIdeal.S1x128, .f32⟩ : BufTy).Contents (Elt Ideal))
    (x : Vec Ideal S5000x128 .f32) (b : Vec Ideal S1x128 .f32) (y : S5000x128.Idx) (i : Cert.ReferenceIdeal.S100000x128.Idx)
    (hx : x y = X i) (hb : b (brow y) = B (rrow i)) :
    k1_pay1 x b y = Cert.Gcn.biasReluRow X B i := by
  rw [pay_apply, spec_apply, hx, hb]

/-! ## From blocks to the array -/

variable (V : (c : Dev nD) → (b : Ref sig .tc) → Buf (Elt Ideal) ((c : Thread nD τ).loc b))

/-- The printed index maps over the 20 grid points: the features' block moves with the result's down the rows,
    the bias block is the whole row. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 19 :=
  (by decide +kernel : ∀ t : Fin grid1.N, _)

/-- Every block of rows is some grid point's. -/
theorem idx_onto : ∀ q0 : Fin 20, ∃ t : Fin cfg1.N, win1_2.index t = ![q0.val, 0] :=
  (by decide +kernel : ∀ q0 : Fin 20, ∃ t : Fin grid1.N, win1_2.index t = ![q0.val, 0])

/-- What point `t` writes back is block `t` of the whole arrays' max(x + b, 0). -/
theorem flushed_eq (c : Dev nD) (t : Fin cfg1.N) :
    (dat1 V c).flushed 2 t = ((cfg1.win 2).blk t).view.read (Elt Ideal) (Cert.Gcn.biasReluRow (V c main_v43) (V c main_v44)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext y
  refine block_value (V c main_v43) (V c main_v44) (iblk1 V c 0 t) (iblk1 V c 1 t) y (((cfg1.win 2).blk t).view.emb y) ?_ ?_
  · show V c main_v43 (((cfg1.win 0).blk t).view.emb y) = V c main_v43 (((cfg1.win 2).blk t).view.emb y)
    refine congrArg (V c main_v43) (funext fun a => Fin.ext ?_)
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 128 + 1 * (y 1).val = win1_2.index t (1 : Fin 2) * 128 + 1 * (y 1).val; omega
  · show V c main_v44 (((cfg1.win 1).blk t).view.emb (brow y)) = V c main_v44 (rrow (((cfg1.win 2).blk t).view.emb y))
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * (y 1).val = win1_2.index t (1 : Fin 2) * 128 + 1 * (y 1).val; omega

/-- An index of the result is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Row r of the result is in the block of point r / 5000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the call the result array is max(x + b, 0) of the two operand arrays as the call found them. -/
theorem value (c : Dev nD) : (dat1 V c).arrAt 2 cfg1.N = Cert.Gcn.biasReluRow (V c main_v43) (V c main_v44) :=
  (dat1 V c).arrAt_eq_of_cover 2 _ (fun t _ => flushed_eq V c t) cover

end Cert.KernelIdeal.Bias1

end
-- ==== Proof.RegionLin128.lean ====
/-
  The second layer's matrix product, as the kernel call computes it: the result array is the host's dot_general of the first layer's output and the second weight matrix.

  The kernel call tiles the 100000 rows of the first layer's output into 20 blocks of 5000 rows; at grid point `t` its body multiplies block
  `t` of the left operand by the whole weight matrix into a zero accumulator and stores the product as block `t` of the
  result. Read with exact arithmetic (a change of float format is the identity), entry (r, j) of that block is the sum
  over k of left[5000·t + r, k] · weights[k, j], which is the host's dot_general of the two whole arrays at row
  5000·t + r: every point writes back its block of ONE whole-array function, and the 20 blocks cover the result.
-/
import proofs.«120914_j34591666602182_1_alg».proof.Proof.Gen.KernelIdeal.Frame
import proofs.«120914_j34591666602182_1_alg».proof.Proof.RefDot
import proofs.«120914_j34591666602182_1_alg».proof.Proof.Spec
import Idealize.ShloMosaic.Lib.Pipeline.Value
import Idealize.ShloMosaic.Lib.ValueIdx
import Idealize.ShloMosaic.PureOps.Ideal.Laws

noncomputable section

namespace Cert.KernelIdeal.Lin128

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-! ## The body's product at an index -/

/-- The product's operand indices at output index `i` and contraction index `q`: (i₀, q) on the left, (q, i₁) on the right. -/
theorem lhs_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `y₀`, column `k` of the left block. -/
abbrev lrow (y : S5000x128.Idx) (k : Fin 128) : S5000x128.Idx := fun a => match a with
  | ⟨0, _⟩ => ⟨(y 0).val, (y 0).isLt⟩
  | ⟨1, _⟩ => ⟨k.val, k.isLt⟩
/-- Row `k`, column `y₁` of the weights. -/
abbrev rcol (y : S5000x128.Idx) (k : Fin 128) : S128x128.Idx := fun a => match a with
  | ⟨0, _⟩ => ⟨k.val, k.isLt⟩
  | ⟨1, _⟩ => ⟨(y 1).val, (y 1).isLt⟩

/-- The stored block at (y₀, y₁) is the sum over k of left[y₀, k] · weights[k, y₁]: the cast is to the same shape, the
    format changes are the identity and the accumulator starts at zero. -/
theorem pay_apply (x0 : Vec Ideal S5000x128 .f32) (x1 : Vec Ideal S128x128 .f32) (y : S5000x128.Idx) :
    k2_pay1 x0 x1 y = ∑ k : Fin 128, x0 (lrow y k) * x1 (rcol y k) := by
  unfold k2_pay1
  show matmul (F := Ideal) dot_S5000x128_S128x128_S5000x128_1_0_0_1_n_n none (truncf (F := Ideal) .bf16 (shapeCast S5000x128 x0 shapeCasts_S5000x128_S5000x128) bitsLt_bf16_f32) (truncf (F := Ideal) .bf16 x1 bitsLt_bf16_f32) (constant (F := Ideal) S5000x128 .f32 0x00000000#32) y = _
  rw [shapeCast_self]
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx y ((ValueIdx.contrEquiv1 dot_S5000x128_S128x128_S5000x128_1_0_0_1_n_n 128 rfl rfl).symm k) = lrow y k := funext fun a => Fin.ext (by
    match a with
    | ⟨0, _⟩ => exact lhs_0 _ _
    | ⟨1, _⟩ => exact (lhs_1 _ _).trans hk)
  have er : dot_S5000x128_S128x128_S5000x128_1_0_0_1_n_n.rhsIdx y ((ValueIdx.contrEquiv1 dot_S5000x128_S128x128_S5000x128_1_0_0_1_n_n 128 rfl rfl).symm k) = rcol y k := funext fun a => Fin.ext (by
    match a with
    | ⟨0, _⟩ => exact (rhs_0 _ _).trans hk
    | ⟨1, _⟩ => exact rhs_1 _ _)
  rw [el, er]
  rfl

/-- A block's entry is the whole arrays' product at the matching row: for a left block `x0` that is rows of `A` (through
    `e0`) and weights `x1` that are `W` (through `e1`), whenever the block's row y₀ sits at row i₀ of `A` and column y₁ is
    column i₁. -/
theorem block_value (A : (⟨Cert.ReferenceIdeal.S100000x128, .f32⟩ : BufTy).Contents (Elt Ideal))
    (W : (⟨Cert.ReferenceIdeal.S128x128, .f32⟩ : BufTy).Contents (Elt Ideal))
    (x0 : Vec Ideal S5000x128 .f32) (x1 : Vec Ideal S128x128 .f32) (y : S5000x128.Idx) (i : Cert.ReferenceIdeal.S100000x128.Idx)
    (e0 : S5000x128.Idx → Cert.ReferenceIdeal.S100000x128.Idx) (e1 : S128x128.Idx → Cert.ReferenceIdeal.S128x128.Idx)
    (hx0 : ∀ j, x0 j = A (e0 j)) (hx1 : ∀ j, x1 j = W (e1 j))
    (he0 : ∀ k : Fin 128, e0 (lrow y k) = Cert.Gcn.Dot.lidx128 i k)
    (he1 : ∀ k : Fin 128, e1 (rcol y k) = Cert.Gcn.Dot.ridx128 i k) :
    k2_pay1 x0 x1 y = Cert.Gcn.lin128 A W i := by
  rw [pay_apply]
  refine Eq.trans ?_ (Cert.Gcn.Dot.lin128_apply A W i).symm
  refine Finset.sum_congr rfl fun k _ => ?_
  rw [hx0, hx1, he0, he1]

/-! ## From blocks to the array -/

variable (V : (c : Dev nD) → (b : Ref sig .tc) → Buf (Elt Ideal) ((c : Thread nD τ).loc b))

/-- The printed index maps over the 20 grid points: the left operand's block moves with the result's down the rows,
    the weights' block is the whole matrix. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 19 :=
  (by decide +kernel : ∀ t : Fin grid2.N, _)

/-- Every block of rows is some grid point's. -/
theorem idx_onto : ∀ q0 : Fin 20, ∃ t : Fin cfg2.N, win2_2.index t = ![q0.val, 0] :=
  (by decide +kernel : ∀ q0 : Fin 20, ∃ t : Fin grid2.N, win2_2.index t = ![q0.val, 0])

/-- What point `t` writes back is block `t` of the whole arrays' product. -/
theorem flushed_eq (c : Dev nD) (t : Fin cfg2.N) :
    (dat2 V c).flushed 2 t = ((cfg2.win 2).blk t).view.read (Elt Ideal) (Cert.Gcn.lin128 (V c main_v45) (V c main_arg5)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext y
  refine block_value (V c main_v45) (V c main_arg5) (iblk2 V c 0 t) (iblk2 V c 1 t) y (((cfg2.win 2).blk t).view.emb y)
    (fun j => ((cfg2.win 0).blk t).view.emb j) (fun j => ((cfg2.win 1).blk t).view.emb j) (fun _ => rfl) (fun _ => rfl)
    (fun k => ?_) (fun k => ?_)
  · funext a; apply Fin.ext
    match a with
    | ⟨0, _⟩ => show win2_0.index t (0 : Fin 2) * 5000 + 1 * (y 0).val = win2_2.index t (0 : Fin 2) * 5000 + 1 * (y 0).val; omega
    | ⟨1, _⟩ => show win2_0.index t (1 : Fin 2) * 128 + 1 * k.val = k.val; omega
  · funext a; apply Fin.ext
    match a with
    | ⟨0, _⟩ => show win2_1.index t (0 : Fin 2) * 128 + 1 * k.val = k.val; omega
    | ⟨1, _⟩ => show win2_1.index t (1 : Fin 2) * 128 + 1 * (y 1).val = win2_2.index t (1 : Fin 2) * 128 + 1 * (y 1).val; omega

/-- An index of the result is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Row r of the result is in the block of point r / 5000. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the call the result array is the host's dot_general of the two operand arrays as the call found them. -/
theorem value (c : Dev nD) : (dat2 V c).arrAt 2 cfg2.N = Cert.Gcn.lin128 (V c main_v45) (V c main_arg5) :=
  (dat2 V c).arrAt_eq_of_cover 2 _ (fun t _ => flushed_eq V c t) cover

end Cert.KernelIdeal.Lin128

end
-- ==== Proof.RegionBias3.lean ====
/-
  The second layer's bias and clamp, as the kernel call computes them: the result array is max(x + b, 0) of the
  propagated features `x` [100000, 128] and the bias row `b` [1, 128].

  The call tiles the 100000 rows into 20 blocks of 5000; at grid point `t` its body adds the one bias row to every row
  of block `t` and clamps below at zero. Entry (r, j) of that block is max(x[5000·t + r, j] + b[0, j], 0), which is the
  host's broadcast-add-maximum of the two whole arrays at row 5000·t + r: every point writes back its block of ONE
  whole-array function, and the 20 blocks cover the result.
-/
import proofs.«120914_j34591666602182_1_alg».proof.Proof.Gen.KernelIdeal.Frame
import proofs.«120914_j34591666602182_1_alg».proof.Proof.Spec
import Idealize.ShloMosaic.Lib.Pipeline.Value
import Idealize.ShloMosaic.Lib.ValueIdx

noncomputable section

namespace Cert.KernelIdeal.Bias3

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-! ## The body at an index -/

/-- The bias row's entry under column `y₁` of a block. -/
abbrev brow (y : S5000x128.Idx) : S1x128.Idx := fun a => match a with
  | ⟨0, _⟩ => ⟨0, by show 0 < 1; omega⟩
  | ⟨1, _⟩ => ⟨(y 1).val, (y 1).isLt⟩

/-- The stored block at (y₀, y₁) is max(x[y₀, y₁] + b[0, y₁], 0): the two shape casts are to the same shape, the
    bias row is broadcast down the rows. -/
theorem pay_apply (x : Vec Ideal S5000x128 .f32) (b : Vec Ideal S1x128 .f32) (y : S5000x128.Idx) :
    k3_pay1 x b y = max (x y + b (brow y)) (Ideal.ofBits .f32 0x00000000#32) := by
  unfold k3_pay1
  show maximumf (F := Ideal) (addf (F := Ideal) (shapeCast S5000x128 x shapeCasts_S5000x128_S5000x128) (broadcastTo S5000x128 (shapeCast S1x128 b shapeCasts_S1x128_S1x128) broadcasts_S1x128_S5000x128)) (broadcast S5000x128 (Scalar.ofBits (F := Ideal) .f32 0x00000000#32)) y = _
  rw [shapeCast_self, shapeCast_self]
  show max (x y + broadcastTo S5000x128 b broadcasts_S1x128_S5000x128 y) (Ideal.ofBits .f32 0x00000000#32) = _
  rw [broadcastTo_apply b broadcasts_S1x128_S5000x128 y (brow y) (fun a => by
    match a with
    | ⟨0, _⟩ => rfl
    | ⟨1, _⟩ => rfl)]

/-- The bias row's entry under column `i₁` of the whole array. -/
abbrev rrow (i : Cert.ReferenceIdeal.S100000x128.Idx) : Cert.ReferenceIdeal.S1x128.Idx := fun a => match a with
  | ⟨0, _⟩ => ⟨0, by show 0 < 1; omega⟩
  | ⟨1, _⟩ => ⟨(i 1).val, (i 1).isLt⟩

/-- The host's form at (i₀, i₁) is max(X[i₀, i₁] + B[0, i₁], 0). -/
theorem spec_apply (X : (⟨Cert.ReferenceIdeal.S100000x128, .f32⟩ : BufTy).Contents (Elt Ideal))
    (B : (⟨Cert.ReferenceIdeal.S1x128, .f32⟩ : BufTy).Contents (Elt Ideal)) (i : Cert.ReferenceIdeal.S100000x128.Idx) :
    Cert.Gcn.biasReluRow X B i = max (X i + B (rrow i)) (Ideal.ofBits .f32 0x00000000#32) := by
  unfold Cert.Gcn.biasReluRow
  show max (X i + broadcastInDim Cert.ReferenceIdeal.S100000x128 ![0, 1] Cert.ReferenceIdeal.Gen.bcast_S1x128_S100000x128_0_1 B i) (Ideal.ofBits .f32 0x00000000#32) = _
  rw [broadcastInDim_apply ![0, 1] Cert.ReferenceIdeal.Gen.bcast_S1x128_S100000x128_0_1 B i (rrow i) (fun a => by
    match a with
    | ⟨0, _⟩ => rfl
    | ⟨1, _⟩ => rfl)]

/-- A block's entry is the whole arrays' value at the matching row: for a block `x` that is rows of `X` and a bias
    block `b` that is `B`. -/
theorem block_value (X : (⟨Cert.ReferenceIdeal.S100000x128, .f32⟩ : BufTy).Contents (Elt Ideal))
    (B : (⟨Cert.ReferenceIdeal.S1x128, .f32⟩ : BufTy).Contents (Elt Ideal))
    (x : Vec Ideal S5000x128 .f32) (b : Vec Ideal S1x128 .f32) (y : S5000x128.Idx) (i : Cert.ReferenceIdeal.S100000x128.Idx)
    (hx : x y = X i) (hb : b (brow y) = B (rrow i)) :
    k3_pay1 x b y = Cert.Gcn.biasReluRow X B i := by
  rw [pay_apply, spec_apply, hx, hb]

/-! ## From blocks to the array -/

variable (V : (c : Dev nD) → (b : Ref sig .tc) → Buf (Elt Ideal) ((c : Thread nD τ).loc b))

/-- The printed index maps over the 20 grid points: the features' block moves with the result's down the rows,
    the bias block is the whole row. -/
theorem idx_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 19 :=
  (by decide +kernel : ∀ t : Fin grid3.N, _)

/-- Every block of rows is some grid point's. -/
theorem idx_onto : ∀ q0 : Fin 20, ∃ t : Fin cfg3.N, win3_2.index t = ![q0.val, 0] :=
  (by decide +kernel : ∀ q0 : Fin 20, ∃ t : Fin grid3.N, win3_2.index t = ![q0.val, 0])

/-- What point `t` writes back is block `t` of the whole arrays' max(x + b, 0). -/
theorem flushed_eq (c : Dev nD) (t : Fin cfg3.N) :
    (dat3 V c).flushed 2 t = ((cfg3.win 2).blk t).view.read (Elt Ideal) (Cert.Gcn.biasReluRow (V c main_v59) (V c main_v60)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts t
  funext y
  refine block_value (V c main_v59) (V c main_v60) (iblk3 V c 0 t) (iblk3 V c 1 t) y (((cfg3.win 2).blk t).view.emb y) ?_ ?_
  · show V c main_v59 (((cfg3.win 0).blk t).view.emb y) = V c main_v59 (((cfg3.win 2).blk t).view.emb y)
    refine congrArg (V c main_v59) (funext fun a => Fin.ext ?_)
    match a with
    | ⟨0, _⟩ => show win3_0.index t (0 : Fin 2) * 5000 + 1 * (y 0).val = win3_2.index t (0 : Fin 2) * 5000 + 1 * (y 0).val; omega
    | ⟨1, _⟩ => show win3_0.index t (1 : Fin 2) * 128 + 1 * (y 1).val = win3_2.index t (1 : Fin 2) * 128 + 1 * (y 1).val; omega
  · show V c main_v60 (((cfg3.win 1).blk t).view.emb (brow y)) = V c main_v60 (rrow (((cfg3.win 2).blk t).view.emb y))
    refine congrArg (V c main_v60) (funext fun a => Fin.ext ?_)
    match a with
    | ⟨0, _⟩ => show win3_1.index t (0 : Fin 2) * 1 + 1 * 0 = 0; omega
    | ⟨1, _⟩ => show win3_1.index t (1 : Fin 2) * 128 + 1 * (y 1).val = win3_2.index t (1 : Fin 2) * 128 + 1 * (y 1).val; omega

/-- An index of the result is in point `t`'s block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Row r of the result is in the block of point r / 5000. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the call the result array is max(x + b, 0) of the two operand arrays as the call found them. -/
theorem value (c : Dev nD) : (dat3 V c).arrAt 2 cfg3.N = Cert.Gcn.biasReluRow (V c main_v59) (V c main_v60) :=
  (dat3 V c).arrAt_eq_of_cover 2 _ (fun t _ => flushed_eq V c t) cover

end Cert.KernelIdeal.Bias3

end
-- ==== Proof.Walk.lean ====
/-
  The idealized kernel program's result as a function of its arguments. The run's boundary contents (`Gen.W0` …
  `Gen.W10`) are walked from the launch memory to the result buffer, one segment at a time, keeping only the buffers a
  later segment reads:

    host lines   edge sources and targets with self loops, the per-edge norm (from the edge list alone)
    call 0       t₁ = features · W₁                                   (the matrix product's closed form)
    host lines   propagate t₁ along the edges; the bias b₁ as one row
    call 1       h₁ = max(propagated + b₁, 0)
    call 2       t₂ = h₁ · W₂
    host lines   propagate t₂; the bias b₂ as one row
    call 3       h₂ = max(propagated + b₂, 0)
    host lines   the mean of h₂'s rows over each graph

  A stretch of host lines rewrites its own result buffers and keeps every other buffer; a call rewrites its output
  array and keeps every buffer that is not one of its arrays. What a stretch writes is the specification's function
  of what it reads by unfolding, since the specification is spelt with the same host operations.
-/
import proofs.«120914_j34591666602182_1_alg».proof.Proof.Gen.KernelIdeal.Frame
import proofs.«120914_j34591666602182_1_alg».proof.Proof.Spec
import proofs.«120914_j34591666602182_1_alg».proof.Proof.RegionLin512
import proofs.«120914_j34591666602182_1_alg».proof.Proof.RegionBias1
import proofs.«120914_j34591666602182_1_alg».proof.Proof.RegionLin128
import proofs.«120914_j34591666602182_1_alg».proof.Proof.RegionBias3
import Idealize.ShloMosaic.Lib.StableHlo.Run
import Idealize.ShloMosaic.Lib.Pipeline.Value

set_option maxRecDepth 16384

noncomputable section

namespace Cert.KernelIdeal.Walk

open Cert.KernelIdeal Cert.KernelIdeal.Gen Idealize.ShloMosaic Idealize.ShloMosaic.TcCoe Idealize.SL.Sem Idealize.ShloMosaic.StableHlo
open Cert.Gcn

variable (m : (ℓ : Loc nD τ sig) → Buf (Elt Ideal) ℓ) (ρ : Dev nD → PrngReg) (c : Dev nD)

/-- The seven argument arrays as launched. -/
abbrev A0 : (⟨S100000x512, .f32⟩ : BufTy).Contents (Elt Ideal) := m ((c : Thread nD τ).loc main_arg0)
abbrev A1 : (⟨S2x1600000, .i32⟩ : BufTy).Contents (Elt Ideal) := m ((c : Thread nD τ).loc main_arg1)
abbrev A2 : (⟨S100000, .i32⟩ : BufTy).Contents (Elt Ideal) := m ((c : Thread nD τ).loc main_arg2)
abbrev A3 : (⟨S512x128, .f32⟩ : BufTy).Contents (Elt Ideal) := m ((c : Thread nD τ).loc main_arg3)
abbrev A4 : (⟨S128, .f32⟩ : BufTy).Contents (Elt Ideal) := m ((c : Thread nD τ).loc main_arg4)
abbrev A5 : (⟨S128x128, .f32⟩ : BufTy).Contents (Elt Ideal) := m ((c : Thread nD τ).loc main_arg5)
abbrev A6 : (⟨S128, .f32⟩ : BufTy).Contents (Elt Ideal) := m ((c : Thread nD τ).loc main_arg6)

/-- The edges with self loops and their norms, from the edge list. -/
abbrev src : (⟨S1700000, .i32⟩ : BufTy).Contents (Elt Ideal) := srcIdx (A1 m c)
abbrev dst : (⟨S1700000, .i32⟩ : BufTy).Contents (Elt Ideal) := dstIdx (A1 m c)
abbrev nrm : (⟨S1700000, .f32⟩ : BufTy).Contents (Elt Ideal) := edgeNorm (srcIdx (A1 m c)) (dstIdx (A1 m c))

/-- The first layer's product, the first layer, the second layer's product, the second layer. -/
abbrev T1 : (⟨S100000x128, .f32⟩ : BufTy).Contents (Elt Ideal) := lin512 (A0 m c) (A3 m c)
abbrev H1 : (⟨S100000x128, .f32⟩ : BufTy).Contents (Elt Ideal) := layerTail (A1 m c) (T1 m c) (A4 m c)
abbrev T2 : (⟨S100000x128, .f32⟩ : BufTy).Contents (Elt Ideal) := lin128 (H1 m c) (A5 m c)
abbrev H2 : (⟨S100000x128, .f32⟩ : BufTy).Contents (Elt Ideal) := layerTail (A1 m c) (T2 m c) (A6 m c)

/-- A vector of 128 reshaped to one row is the vector broadcast to one row. -/
abbrev vecIdx (i : S1x128.Idx) : S128.Idx := fun a => match a with
  | ⟨0, _⟩ => ⟨(i 1).val, (i 1).isLt⟩

theorem row_of_vec (b : (⟨S128, .f32⟩ : BufTy).Contents (Elt Ideal)) :
    shapeCast S1x128 b shapeCasts_S128_S1x128
      = broadcastInDim Cert.ReferenceIdeal.S1x128 ![1] Cert.ReferenceIdeal.Gen.bcast_S128_S1x128_1 b := by
  funext i
  have h0 : (i 0).val < 1 := (i 0).isLt
  rw [shapeCast_apply b shapeCasts_S128_S1x128 i (vecIdx i) (by
      rw [Shape.rowMajor_val_one, Shape.rowMajor_val_two]
      show (i 1).val = (i 0).val * 128 + (i 1).val
      omega),
    broadcastInDim_apply ![1] Cert.ReferenceIdeal.Gen.bcast_S128_S1x128_1 b i (vecIdx i) (fun a => by
      match a with
      | ⟨0, _⟩ => rfl)]

/-! ## Before the first call: the host lines that read the edge list -/

theorem at3_arg0 : W3 m ρ c (Proc.devRef .tc main_arg0) = A0 m c := by
  show StableHlo.after hostOps0_2 (StableHlo.after hostOps0_1 (StableHlo.after hostOps0 (W0 m ρ c))) (Proc.devRef .tc main_arg0) = _
  after_results_simp <;> rfl
theorem at3_arg2 : W3 m ρ c (Proc.devRef .tc main_arg2) = A2 m c := by
  show StableHlo.after hostOps0_2 (StableHlo.after hostOps0_1 (StableHlo.after hostOps0 (W0 m ρ c))) (Proc.devRef .tc main_arg2) = _
  after_results_simp <;> rfl
theorem at3_arg3 : W3 m ρ c (Proc.devRef .tc main_arg3) = A3 m c := by
  show StableHlo.after hostOps0_2 (StableHlo.after hostOps0_1 (StableHlo.after hostOps0 (W0 m ρ c))) (Proc.devRef .tc main_arg3) = _
  after_results_simp <;> rfl
theorem at3_arg4 : W3 m ρ c (Proc.devRef .tc main_arg4) = A4 m c := by
  show StableHlo.after hostOps0_2 (StableHlo.after hostOps0_1 (StableHlo.after hostOps0 (W0 m ρ c))) (Proc.devRef .tc main_arg4) = _
  after_results_simp <;> rfl
theorem at3_arg5 : W3 m ρ c (Proc.devRef .tc main_arg5) = A5 m c := by
  show StableHlo.after hostOps0_2 (StableHlo.after hostOps0_1 (StableHlo.after hostOps0 (W0 m ρ c))) (Proc.devRef .tc main_arg5) = _
  after_results_simp <;> rfl
theorem at3_arg6 : W3 m ρ c (Proc.devRef .tc main_arg6) = A6 m c := by
  show StableHlo.after hostOps0_2 (StableHlo.after hostOps0_1 (StableHlo.after hostOps0 (W0 m ρ c))) (Proc.devRef .tc main_arg6) = _
  after_results_simp <;> rfl

/-- The sources: the edge list's first row, then the self loops. -/
theorem at3_v3 : W3 m ρ c (Proc.devRef .tc main_v3) = src m c := by
  show StableHlo.after hostOps0_2 (StableHlo.after hostOps0_1 (StableHlo.after hostOps0 (W0 m ρ c))) (Proc.devRef .tc main_v3) = _
  after_results_simp <;> rfl
/-- The targets: the edge list's second row, then the self loops. -/
theorem at3_v6 : W3 m ρ c (Proc.devRef .tc main_v6) = dst m c := by
  show StableHlo.after hostOps0_2 (StableHlo.after hostOps0_1 (StableHlo.after hostOps0 (W0 m ρ c))) (Proc.devRef .tc main_v6) = _
  after_results_simp <;> rfl
/-- The outlined `where`, from any contents: the chosen value where the flag is set, the broadcast scalar elsewhere. -/
theorem where_result (V : Valuation τ sig (Elt Ideal)) :
    StableHlo.after hostOps0_1 V (Proc.devRef .tc main_v14)
      = select (V (Proc.devRef .tc main_v12)) (V (Proc.devRef .tc main_v13)) (broadcastInDim S100000 ![] bcast_S_S100000 (id (V (Proc.devRef .tc main_cst_2)))) := by
  after_results_simp <;> rfl
/-- The last lines before the first call, from any contents: the two gathers' product. -/
theorem norm_result (V : Valuation τ sig (Elt Ideal)) :
    StableHlo.after hostOps0_2 V (Proc.devRef .tc main_v29)
      = mulf (F := Ideal) (φ := .f32) (Host.gather gather_S100000_S1700000x1_S1700000_n_0_n_n_0_1_1 (V (Proc.devRef .tc main_v14)) (wrapIdx (V (Proc.devRef .tc main_v3))))
          (Host.gather gather_S100000_S1700000x1_S1700000_n_0_n_n_0_1_1 (V (Proc.devRef .tc main_v14)) (wrapIdx (V (Proc.devRef .tc main_v6)))) := by
  after_results_simp <;> rfl

/-- After the first stretch: the degree's sign test, its inverse square root, the scalar zero, sources and targets. -/
theorem at1_v12 : W1 m ρ c (Proc.devRef .tc main_v12)
    = cmpf .ogt (degree (dst m c)) (broadcastInDim Cert.ReferenceIdeal.S100000 ![] Cert.ReferenceIdeal.Gen.bcast_S_S100000 (constant (F := Ideal) Cert.ReferenceIdeal.S_ .f32 0x00000000#32)) := by
  show StableHlo.after hostOps0 (W0 m ρ c) (Proc.devRef .tc main_v12) = _
  after_results_simp
  unfold degree dst dstIdx
  rfl
theorem at1_v13 : W1 m ρ c (Proc.devRef .tc main_v13) = Host.rsqrt (degree (dst m c)) := by
  show StableHlo.after hostOps0 (W0 m ρ c) (Proc.devRef .tc main_v13) = _
  after_results_simp
  unfold degree dst dstIdx
  rfl
theorem at1_cst2 : W1 m ρ c (Proc.devRef .tc main_cst_2) = constant (F := Ideal) Cert.ReferenceIdeal.S_ .f32 0x00000000#32 := by
  show StableHlo.after hostOps0 (W0 m ρ c) (Proc.devRef .tc main_cst_2) = _
  after_results_simp <;> rfl
theorem at1_v3 : W1 m ρ c (Proc.devRef .tc main_v3) = src m c := by
  show StableHlo.after hostOps0 (W0 m ρ c) (Proc.devRef .tc main_v3) = _
  after_results_simp <;> rfl
theorem at1_v6 : W1 m ρ c (Proc.devRef .tc main_v6) = dst m c := by
  show StableHlo.after hostOps0 (W0 m ρ c) (Proc.devRef .tc main_v6) = _
  after_results_simp <;> rfl

/-- After the outlined `where`: 1/sqrt(degree), 0 at degree 0. -/
theorem at2_v14 : W2 m ρ c (Proc.devRef .tc main_v14) = invSqrtDeg (dst m c) := by
  show StableHlo.after hostOps0_1 (W1 m ρ c) (Proc.devRef .tc main_v14) = _
  rw [where_result, at1_v12, at1_v13, at1_cst2]
  rfl
theorem at2_v3 : W2 m ρ c (Proc.devRef .tc main_v3) = src m c := by
  refine Eq.trans ?_ (at1_v3 m ρ c)
  show StableHlo.after hostOps0_1 (W1 m ρ c) (Proc.devRef .tc main_v3) = _
  after_results_simp <;> rfl
theorem at2_v6 : W2 m ρ c (Proc.devRef .tc main_v6) = dst m c := by
  refine Eq.trans ?_ (at1_v6 m ρ c)
  show StableHlo.after hostOps0_1 (W1 m ρ c) (Proc.devRef .tc main_v6) = _
  after_results_simp <;> rfl

/-- The per-edge norm. -/
theorem at3_v29 : W3 m ρ c (Proc.devRef .tc main_v29) = nrm m c := by
  show StableHlo.after hostOps0_2 (W2 m ρ c) (Proc.devRef .tc main_v29) = _
  rw [norm_result, at2_v14, at2_v3, at2_v6]
  rfl

/-! ## Call 0: the first matrix product -/

theorem at4_v30 : W4 m ρ c (Proc.devRef .tc main_v30) = T1 m c := by
  refine (W4_arr m ρ c 2).trans ((Lin512.value (V3 m ρ) c).trans ?_)
  show lin512 (W3 m ρ c (Proc.devRef .tc main_arg0)) (W3 m ρ c (Proc.devRef .tc main_arg3)) = _
  rw [at3_arg0, at3_arg3]
theorem at4_v3 : W4 m ρ c (Proc.devRef .tc main_v3) = src m c := (W4_of_ne m ρ c main_v3 (by decide)).trans (at3_v3 m ρ c)
theorem at4_v6 : W4 m ρ c (Proc.devRef .tc main_v6) = dst m c := (W4_of_ne m ρ c main_v6 (by decide)).trans (at3_v6 m ρ c)
theorem at4_v29 : W4 m ρ c (Proc.devRef .tc main_v29) = nrm m c := (W4_of_ne m ρ c main_v29 (by decide)).trans (at3_v29 m ρ c)
theorem at4_arg2 : W4 m ρ c (Proc.devRef .tc main_arg2) = A2 m c := (W4_of_ne m ρ c main_arg2 (by decide)).trans (at3_arg2 m ρ c)
theorem at4_arg4 : W4 m ρ c (Proc.devRef .tc main_arg4) = A4 m c := (W4_of_ne m ρ c main_arg4 (by decide)).trans (at3_arg4 m ρ c)
theorem at4_arg5 : W4 m ρ c (Proc.devRef .tc main_arg5) = A5 m c := (W4_of_ne m ρ c main_arg5 (by decide)).trans (at3_arg5 m ρ c)
theorem at4_arg6 : W4 m ρ c (Proc.devRef .tc main_arg6) = A6 m c := (W4_of_ne m ρ c main_arg6 (by decide)).trans (at3_arg6 m ρ c)

/-! ## The host lines between call 0 and call 1 -/

/-- The first product propagated along the edges. -/
theorem at5_v43 : W5 m ρ c (Proc.devRef .tc main_v43) = propagate (src m c) (dst m c) (nrm m c) (T1 m c) := by
  show StableHlo.after hostOps1 (W4 m ρ c) (Proc.devRef .tc main_v43) = _
  after_results_simp
  rw [at4_v3, at4_v6, at4_v29, at4_v30]
  rfl
/-- The first bias as one row. -/
theorem at5_v44 : W5 m ρ c (Proc.devRef .tc main_v44)
    = broadcastInDim Cert.ReferenceIdeal.S1x128 ![1] Cert.ReferenceIdeal.Gen.bcast_S128_S1x128_1 (A4 m c) := by
  show StableHlo.after hostOps1 (W4 m ρ c) (Proc.devRef .tc main_v44) = _
  after_results_simp
  rw [at4_arg4]
  exact row_of_vec (A4 m c)
theorem at5_v3 : W5 m ρ c (Proc.devRef .tc main_v3) = src m c := by
  refine Eq.trans ?_ (at4_v3 m ρ c)
  show StableHlo.after hostOps1 (W4 m ρ c) (Proc.devRef .tc main_v3) = _
  after_results_simp <;> rfl
theorem at5_v6 : W5 m ρ c (Proc.devRef .tc main_v6) = dst m c := by
  refine Eq.trans ?_ (at4_v6 m ρ c)
  show StableHlo.after hostOps1 (W4 m ρ c) (Proc.devRef .tc main_v6) = _
  after_results_simp <;> rfl
theorem at5_v29 : W5 m ρ c (Proc.devRef .tc main_v29) = nrm m c := by
  refine Eq.trans ?_ (at4_v29 m ρ c)
  show StableHlo.after hostOps1 (W4 m ρ c) (Proc.devRef .tc main_v29) = _
  after_results_simp <;> rfl
theorem at5_arg2 : W5 m ρ c (Proc.devRef .tc main_arg2) = A2 m c := by
  refine Eq.trans ?_ (at4_arg2 m ρ c)
  show StableHlo.after hostOps1 (W4 m ρ c) (Proc.devRef .tc main_arg2) = _
  after_results_simp <;> rfl
theorem at5_arg5 : W5 m ρ c (Proc.devRef .tc main_arg5) = A5 m c := by
  refine Eq.trans ?_ (at4_arg5 m ρ c)
  show StableHlo.after hostOps1 (W4 m ρ c) (Proc.devRef .tc main_arg5) = _
  after_results_simp <;> rfl
theorem at5_arg6 : W5 m ρ c (Proc.devRef .tc main_arg6) = A6 m c := by
  refine Eq.trans ?_ (at4_arg6 m ρ c)
  show StableHlo.after hostOps1 (W4 m ρ c) (Proc.devRef .tc main_arg6) = _
  after_results_simp <;> rfl

/-! ## Call 1: the first layer's bias and clamp -/

theorem at6_v45 : W6 m ρ c (Proc.devRef .tc main_v45) = H1 m c := by
  refine (W6_arr m ρ c 2).trans ((Bias1.value (V5 m ρ) c).trans ?_)
  show biasReluRow (W5 m ρ c (Proc.devRef .tc main_v43)) (W5 m ρ c (Proc.devRef .tc main_v44)) = _
  rw [at5_v43, at5_v44]
  rfl
theorem at6_v3 : W6 m ρ c (Proc.devRef .tc main_v3) = src m c := (W6_of_ne m ρ c main_v3 (by decide)).trans (at5_v3 m ρ c)
theorem at6_v6 : W6 m ρ c (Proc.devRef .tc main_v6) = dst m c := (W6_of_ne m ρ c main_v6 (by decide)).trans (at5_v6 m ρ c)
theorem at6_v29 : W6 m ρ c (Proc.devRef .tc main_v29) = nrm m c := (W6_of_ne m ρ c main_v29 (by decide)).trans (at5_v29 m ρ c)
theorem at6_arg2 : W6 m ρ c (Proc.devRef .tc main_arg2) = A2 m c := (W6_of_ne m ρ c main_arg2 (by decide)).trans (at5_arg2 m ρ c)
theorem at6_arg5 : W6 m ρ c (Proc.devRef .tc main_arg5) = A5 m c := (W6_of_ne m ρ c main_arg5 (by decide)).trans (at5_arg5 m ρ c)
theorem at6_arg6 : W6 m ρ c (Proc.devRef .tc main_arg6) = A6 m c := (W6_of_ne m ρ c main_arg6 (by decide)).trans (at5_arg6 m ρ c)

/-! ## Call 2: the second matrix product -/

theorem at7_v46 : W7 m ρ c (Proc.devRef .tc main_v46) = T2 m c := by
  refine (W7_arr m ρ c 2).trans ((Lin128.value (V6 m ρ) c).trans ?_)
  show lin128 (W6 m ρ c (Proc.devRef .tc main_v45)) (W6 m ρ c (Proc.devRef .tc main_arg5)) = _
  rw [at6_v45, at6_arg5]
theorem at7_v3 : W7 m ρ c (Proc.devRef .tc main_v3) = src m c := (W7_of_ne m ρ c main_v3 (by decide)).trans (at6_v3 m ρ c)
theorem at7_v6 : W7 m ρ c (Proc.devRef .tc main_v6) = dst m c := (W7_of_ne m ρ c main_v6 (by decide)).trans (at6_v6 m ρ c)
theorem at7_v29 : W7 m ρ c (Proc.devRef .tc main_v29) = nrm m c := (W7_of_ne m ρ c main_v29 (by decide)).trans (at6_v29 m ρ c)
theorem at7_arg2 : W7 m ρ c (Proc.devRef .tc main_arg2) = A2 m c := (W7_of_ne m ρ c main_arg2 (by decide)).trans (at6_arg2 m ρ c)
theorem at7_arg6 : W7 m ρ c (Proc.devRef .tc main_arg6) = A6 m c := (W7_of_ne m ρ c main_arg6 (by decide)).trans (at6_arg6 m ρ c)

/-! ## The host lines between call 2 and call 3 -/

/-- The second product propagated along the edges. -/
theorem at8_v59 : W8 m ρ c (Proc.devRef .tc main_v59) = propagate (src m c) (dst m c) (nrm m c) (T2 m c) := by
  show StableHlo.after hostOps3 (W7 m ρ c) (Proc.devRef .tc main_v59) = _
  after_results_simp
  rw [at7_v3, at7_v6, at7_v29, at7_v46]
  rfl
/-- The second bias as one row. -/
theorem at8_v60 : W8 m ρ c (Proc.devRef .tc main_v60)
    = broadcastInDim Cert.ReferenceIdeal.S1x128 ![1] Cert.ReferenceIdeal.Gen.bcast_S128_S1x128_1 (A6 m c) := by
  show StableHlo.after hostOps3 (W7 m ρ c) (Proc.devRef .tc main_v60) = _
  after_results_simp
  rw [at7_arg6]
  exact row_of_vec (A6 m c)
theorem at8_arg2 : W8 m ρ c (Proc.devRef .tc main_arg2) = A2 m c := by
  refine Eq.trans ?_ (at7_arg2 m ρ c)
  show StableHlo.after hostOps3 (W7 m ρ c) (Proc.devRef .tc main_arg2) = _
  after_results_simp <;> rfl

/-! ## Call 3: the second layer's bias and clamp -/

theorem at9_v61 : W9 m ρ c (Proc.devRef .tc main_v61) = H2 m c := by
  refine (W9_arr m ρ c 2).trans ((Bias3.value (V8 m ρ) c).trans ?_)
  show biasReluRow (W8 m ρ c (Proc.devRef .tc main_v59)) (W8 m ρ c (Proc.devRef .tc main_v60)) = _
  rw [at8_v59, at8_v60]
  rfl
theorem at9_arg2 : W9 m ρ c (Proc.devRef .tc main_arg2) = A2 m c := (W9_of_ne m ρ c main_arg2 (by decide)).trans (at8_arg2 m ρ c)

/-! ## The last host lines: the mean over each graph -/

/-- The program's result is the network of its arguments. -/
theorem result_value : W10 m ρ c (Proc.devRef .tc main_v73)
    = gcn (A0 m c) (A1 m c) (A2 m c) (A3 m c) (A4 m c) (A5 m c) (A6 m c) := by
  show StableHlo.after hostOps4 (W9 m ρ c) (Proc.devRef .tc main_v73) = _
  after_results_simp
  rw [at9_v61, at9_arg2]
  rfl

end Cert.KernelIdeal.Walk

end
-- ==== Proof.RefSide.lean ====
/-
  The reference program's result as a function of its arguments: the composed term its run ends at is the network
  `gcn` of the seven argument arrays — the specification's functions are the reference's own host operations, grouped
  and named, so the two are one term once the names are unfolded.
-/
import proofs.«120914_j34591666602182_1_alg».proof.Proof.RefRun
import proofs.«120914_j34591666602182_1_alg».proof.Proof.Spec

set_option maxRecDepth 16384

noncomputable section

namespace Cert.ReferenceIdeal.RefValue

open Cert.ReferenceIdeal Cert.ReferenceIdeal.Gen Idealize.ShloMosaic Idealize.ShloMosaic.TcCoe Idealize.SL.Sem
open Cert.Gcn

variable {F : FTy → Type} [FloatOps F]

set_option maxHeartbeats 4000000 in
theorem result_eq (m : (ℓ : Loc nD τ sig) → Buf (Elt F) ℓ) (c : Dev nD) :
    Cert.ReferenceIdeal.ValueP.res_main_v77 m c
      = gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  unfold Cert.ReferenceIdeal.ValueP.res_main_v77 gcn layerTail meanPool biasRelu biasReluRow propagate edgeNorm invSqrtDeg degree wrapIdx srcIdx dstIdx lin512 lin128
  rfl

end Cert.ReferenceIdeal.RefValue

end
-- ==== Proof.lean ====
/-
  A two-layer graph convolution with mean pooling: the Pallas program against its jnp reference, at exact arithmetic.

  Both programs build the self-looped edge list and the per-edge norm 1/sqrt(deg src) · 1/sqrt(deg dst) on the host,
  and both propagate, per layer, a [100000, 128] array along the 1 700 000 edges with the same gather, scale and
  scatter-add, and end with the same mean over each of the 64 graphs. They differ in four places. The reference forms
  each layer's matrix product with one host dot_general; the kernel program with a pipelined call that multiplies 20
  blocks of 5000 rows by the weight matrix (rounding the operands to bf16 first, which is the identity here). The
  reference adds the bias and clamps at zero with host operations; the kernel program with a second pipelined call
  over the same 20 blocks. With exact arithmetic a block product is the rows of the whole product (a sum over the
  contraction index either way) and the blockwise max(x + b, 0) is the rows of the whole one, so each call leaves
  exactly the array the reference's host operations compute, and everything around the calls is the same function of
  it. No finiteness of the inputs is used: no step reorders or distributes a sum.

  `Spec` names the shared functions and the network `gcn`; `RegionLin512`/`RegionLin128` and `RegionBias1`/`RegionBias3`
  are the four calls' closed forms; `KernelRun` is the kernel program's run with its result kept; `Walk` carries the
  arguments through the run's segments to the result; `RefRun` is the reference's run and `RefSide` reads its result
  as `gcn`. The two kernel programs' frames are the generated ones; the reference's frame is its run (`RefRun`) with the result
  dropped; the idealization rewrote no operation.
-/
import proofs.«120914_j34591666602182_1_alg».proof.Defs
import proofs.«120914_j34591666602182_1_alg».proof.Proof.Gen.Kernel
import proofs.«120914_j34591666602182_1_alg».proof.Proof.Gen.Kernel.Skeleton
import proofs.«120914_j34591666602182_1_alg».proof.Proof.Gen.Kernel.Launch
import proofs.«120914_j34591666602182_1_alg».proof.Proof.Gen.Kernel.Points
import proofs.«120914_j34591666602182_1_alg».proof.Proof.Gen.Kernel.Frame
import proofs.«120914_j34591666602182_1_alg».proof.Proof.Gen.KernelIdeal
import proofs.«120914_j34591666602182_1_alg».proof.Proof.Gen.KernelIdeal.Skeleton
import proofs.«120914_j34591666602182_1_alg».proof.Proof.Gen.KernelIdeal.Launch
import proofs.«120914_j34591666602182_1_alg».proof.Proof.Gen.KernelIdeal.Points
import proofs.«120914_j34591666602182_1_alg».proof.Proof.Gen.KernelIdeal.Frame
import proofs.«120914_j34591666602182_1_alg».proof.Proof.Gen.ReferenceIdeal
import proofs.«120914_j34591666602182_1_alg».proof.Proof.Gen.Pre_finite_inputs
import proofs.«120914_j34591666602182_1_alg».proof.Proof.KernelRun
import proofs.«120914_j34591666602182_1_alg».proof.Proof.Walk
import proofs.«120914_j34591666602182_1_alg».proof.Proof.RefRun
import proofs.«120914_j34591666602182_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel call: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the arguments both programs end at the network `gcn` of the arguments. -/
theorem algebraic : Cert.algebraic_KernelIdeal_ReferenceIdeal := by
  intro m ρ m' ρ' _ hagree
  refine ⟨fun c => Cert.Gcn.gcn (Cert.KernelIdeal.Walk.A0 m c) (Cert.KernelIdeal.Walk.A1 m c) (Cert.KernelIdeal.Walk.A2 m c)
      (Cert.KernelIdeal.Walk.A3 m c) (Cert.KernelIdeal.Walk.A4 m c) (Cert.KernelIdeal.Walk.A5 m c) (Cert.KernelIdeal.Walk.A6 m c), ?_, ?_⟩
  · exact (θ_run Cert.KernelIdeal.defs _ _).mono
      (fun _ h c => ⟨(h c).1.trans (Cert.KernelIdeal.Walk.result_value m ρ c), (h c).2⟩)
      (Cert.KernelIdeal.GcnRun.run_value (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
